-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x11 : Shape := ⟨2, ![64, 11]⟩
abbrev S11 : Shape := ⟨1, ![11]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x11 : S_.BroadcastsInDim S64x11 (![] : Fin 0 → Fin S64x11.rank)
  reducesTo_S64x11_S_d0_1 : S64x11.ReducesTo [0, 1] S_
  bcast_S_S11 : S_.BroadcastsInDim S11 (![] : Fin 0 → Fin S11.rank)
  reducesTo_S11_S_d0 : S11.ReducesTo [0] S_

variable [Facts]

def fn_part1 {F : FTy → Type} [FloatOps F] (main_arg5 : FVec F S64 .f32) (main_arg6 : FVec F S64x11 .f32) (main_arg7 : FVec F S11 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x11 .f32 := Host.absf main_arg6
  let main_cst_8 : FVec F S_ .f32 := constant S_ .f32 0x7F800000#32
  let main_v25 : FVec F S64x11 .f32 := broadcastInDim S64x11 ![] bcast_S_S64x11 main_cst_8
  let main_v26 : IVec S64x11 1 := cmpf .olt main_v24 main_v25
  let main_c_9 : IVec S_ 1 := constantI S_ 1 1#1
  let main_v27 : IVec S_ 1 := (fun x v => Host.reduce IntOp.andi x v reducesTo_S64x11_S_d0_1 h_S_) main_v26 main_c_9
  let main_v28 : IVec S_ 1 := andi main_v23 main_v27
  let main_v29 : FVec F S11 .f32 := Host.absf main_arg7
  let main_cst_10 : FVec F S_ .f32 := constant S_ .f32 0x7F800000#32
  let main_v30 : FVec F S11 .f32 := broadcastInDim S11 ![] bcast_S_S11 main_cst_10
  let main_v31 : IVec S11 1 := cmpf .olt main_v29 main_v30
  let main_c_11 : IVec S_ 1 := constantI S_ 1 1#1
  let main_v32 : IVec S_ 1 := (fun x v => Host.reduce IntOp.andi x v reducesTo_S11_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x64 .f32) (main_arg3 : FVec F S64 .f32) (main_arg4 : FVec F S64x64 .f32) (main_arg5 : FVec F S64 .f32) (main_arg6 : FVec F S64x11 .f32) (main_arg7 : FVec F S11 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x11 : Shape := ⟨2, ![64, 11]⟩
abbrev S11 : Shape := ⟨1, ![11]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x11 : Shape := ⟨2, ![1, 11]⟩
abbrev S100000x11 : Shape := ⟨2, ![100000, 11]⟩
abbrev S5000x11 : Shape := ⟨2, ![5000, 11]⟩

abbrev nBuf : Space → Nat
  | .hbm => 89
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x11, .f32⟩
  | .hbm, ⟨7, _⟩ => ⟨S11, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .f32⟩
  | .hbm, ⟨42, _⟩ => ⟨S64, .f32⟩
  | .hbm, ⟨43, _⟩ => ⟨S1x64, .f32⟩
  | .hbm, ⟨44, _⟩ => ⟨S100000x64, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S64, .f32⟩
  | .hbm, ⟨66, _⟩ => ⟨S1x64, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S1x11, .f32⟩
  | .hbm, ⟨88, _⟩ => ⟨S100000x11, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x11, .f32⟩
  | .local _ .vmem, ⟨15, _⟩ => ⟨S1x11, .f32⟩
  | .local _ .vmem, ⟨16, _⟩ => ⟨S5000x11, .f32⟩
  | .local _ .vmem, ⟨17, _⟩ => ⟨S5000x11, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x11 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x11 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x11 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S64 : S_.BroadcastsInDim S64 (![] : Fin 0 → Fin S64.rank)
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S11_S1x11 : S11.ShapeCasts S1x11
  inb_S64x11_S64x11_0_0 : ∀ a, (![0, 0] : Fin 2 → Nat) a + S64x11.size a ≤ S64x11.size a
  h_S64x11 : 0 < S64x11.numel
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S5000x11 : S1x11.Broadcasts S5000x11
  inb_S5000x11_S5000x11_0_0 : ∀ a, (![0, 0] : Fin 2 → Nat) a + S5000x11.size a ≤ S5000x11.size a
  h_S5000x11 : 0 < S5000x11.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x11_S5000x11_1_0_0_1_n_n_wf : DotDims.WF S5000x64 S64x11 S5000x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x11.size a ≤ S64x11.size a
  hwx2_1 : ∀ i : grid2.Coords, EltTy.bits .f32 = 32 ∨ (Rect.block (s := S64x11) S64x11.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x11.size a ≤ S1x11.size a
  hwx2_2 : ∀ i : grid2.Coords, EltTy.bits .f32 = 32 ∨ (Rect.block (s := S1x11) S1x11.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x11.size a ≤ S100000x11.size a
  hwx2_3 : ∀ i : grid2.Coords, EltTy.bits .f32 = 32 ∨ (Rect.block (s := S100000x11) S5000x11.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x11_S5000x11_1_0_0_1_n_n : DotDims S5000x64 S64x11 S5000x11 where
  lhsContracting := [1]
  rhsContracting := [0]
  lhsNonContracting := [0]
  rhsNonContracting := [1]
  lhsBatch := []
  rhsBatch := []
  wf := dot_S5000x64_S64x11_S5000x11_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x11.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x11.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x11.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S64x11 : Shape := ⟨2, ![64, 11]⟩
abbrev S11 : Shape := ⟨1, ![11]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x11 : Shape := ⟨2, ![100000, 11]⟩
abbrev S1x11 : Shape := ⟨2, ![1, 11]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x11, .f32⟩
  | .hbm, ⟨7, _⟩ => ⟨S11, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S1700000x1, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000, .i32⟩
  | .hbm, ⟨65, _⟩ => ⟨S1x1600000, .i32⟩
  | .hbm, ⟨66, _⟩ => ⟨S1600000, .i32⟩
  | .hbm, ⟨67, _⟩ => ⟨S1700000, .i32⟩
  | .hbm, ⟨68, _⟩ => ⟨S1x1600000, .i32⟩
  | .hbm, ⟨69, _⟩ => ⟨S1600000, .i32⟩
  | .hbm, ⟨70, _⟩ => ⟨S1700000, .i32⟩
  | .hbm, ⟨71, _⟩ => ⟨S_, .f32⟩
  | .hbm, ⟨72, _⟩ => ⟨S1700000, .f32⟩
  | .hbm, ⟨73, _⟩ => ⟨S_, .f32⟩
  | .hbm, ⟨74, _⟩ => ⟨S100000, .f32⟩
  | .hbm, ⟨75, _⟩ => ⟨S1700000x1, .i32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S1700000, .f32⟩
  | .hbm, ⟨97, _⟩ => ⟨S100000x64, .f32⟩
  | .hbm, ⟨98, _⟩ => ⟨S1700000x1, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x64, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000x64, .f32⟩
  | .hbm, ⟨119, _⟩ => ⟨S100000x64, .f32⟩
  | .hbm, ⟨120, _⟩ => ⟨S100000x11, .f32⟩
  | .hbm, ⟨121, _⟩ => ⟨S1x11, .f32⟩
  | .hbm, ⟨122, _⟩ => ⟨S100000x11, .f32⟩
  | .hbm, ⟨123, _⟩ => ⟨S100000x11, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_c_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S11_S1x11_1 : S11.BroadcastsInDim S1x11 (![1] : Fin 1 → Fin S1x11.rank)
  bcast_S1x11_S100000x11_0_1 : S1x11.BroadcastsInDim S100000x11 (![0, 1] : Fin 2 → Fin S100000x11.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x11_S100000x11_1_0_0_1_n_n_wf : DotDims.WF S100000x64 S64x11 S100000x11 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x11_S100000x11_1_0_0_1_n_n : DotDims S100000x64 S64x11 S100000x11 where
  lhsContracting := [1]
  rhsContracting := [0]
  lhsNonContracting := [0]
  rhsNonContracting := [1]
  lhsBatch := []
  rhsBatch := []
  wf := dot_S100000x64_S64x11_S100000x11_1_0_0_1_n_n_wf

class Facts : Prop extends Facts₀ where

variable [Facts]
-- ==== Proof.RunValue.lean ====
/-
  The idealized kernel's run with its result array named.

  The kernel program is three tiled dense layers among stretches of host operations. Its run is followed segment by
  segment: the buffer contents at each segment boundary are a fold from the launch memory (a host stretch applies its
  operations in order; a tiled region leaves each of its arrays at what its write-backs produce and every other buffer
  as it found it). At the return every unscoped buffer holds the last boundary's contents; in particular the result
  array holds the last boundary's contents at the result buffer, and the eight argument arrays hold what they held
  at launch.
-/
import proofs.«180958_j82334523064419_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the last
    segment boundary's contents and the arguments end as launched. -/
theorem run : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibReluDense.lean ====
/-
  A dense layer with a row bias, with or without a rectifier in front, on a block of rows, at the extended reals.

  The layer sends an activation matrix X [M,K] to X·W + B, the bias B one row [1,N] added to every row; a rectified
  layer first replaces X by max(X, 0). Each row of the result depends on the same row of X alone. So a tiled program
  that holds a block of rows A of X (row a of the block being row `row a` of X) and computes the layer on the block in
  its own spelling (operands narrowed to bf16, the product accumulated into a zero block, the bias row passed through
  an identity cast and repeated down the block, the rectifier's zero a splat scalar, the block passed through an
  identity cast) gets the same block of rows of the host's layer (a plain product of the whole matrices, the bias row
  broadcast down all M rows, the rectifier's zero a broadcast constant). Entry by entry, generic in the four extents.
  Only 0 + x = x and the definitions of the operations are used, so everything holds at the infinities too.
-/
import proofs.«180958_j82334523064419_1_alg».proof.Proof.LibRowBlockDot
import proofs.«180958_j82334523064419_1_alg».proof.Proof.LibBiasRows
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibReluDense

open Idealize.ShloMosaic Idealize.ShloMosaic.ValueIdx

variable {M m K N : Nat}

/-- The host's dense layer on whole arrays: X·W plus the bias row B broadcast down all the rows. -/
def layer (X : FVec Ideal ⟨2, ![M, K]⟩ .f32) (W : FVec Ideal ⟨2, ![K, N]⟩ .f32) (B : FVec Ideal ⟨2, ![1, N]⟩ .f32)
    (hrow : (⟨2, ![1, N]⟩ : Shape).BroadcastsInDim ⟨2, ![M, N]⟩ (![0, 1] : Fin 2 → Fin 2)) : FVec Ideal ⟨2, ![M, N]⟩ .f32 :=
  addf (Host.dotGeneral (DotDims.plain M K N) none X W) (broadcastInDim ⟨2, ![M, N]⟩ ![0, 1] hrow B)

/-- The host's rectifier on a whole array: the maximum with a broadcast zero constant. -/
def relu (X : FVec Ideal ⟨2, ![M, K]⟩ .f32)
    (hz : (⟨0, ![]⟩ : Shape).BroadcastsInDim ⟨2, ![M, K]⟩ (![] : Fin 0 → Fin 2)) : FVec Ideal ⟨2, ![M, K]⟩ .f32 :=
  maximumf X (broadcastInDim ⟨2, ![M, K]⟩ ![] hz (constant (F := Ideal) ⟨0, ![]⟩ .f32 0x00000000#32))

/-- X·W + B on a block of rows: the tiled program's product of the narrowed block and weights into the zero block,
    plus the bias row repeated down the block, is entry (`row a`, q) of the host's X·W plus the bias row broadcast
    down all the rows. -/
theorem dense_rows (row : Fin m → Fin M)
    (Dk : DotDims ⟨2, ![m, K]⟩ ⟨2, ![K, N]⟩ ⟨2, ![m, N]⟩) (hDk : Dk = DotDims.plain m K N)
    (X : FVec Ideal ⟨2, ![M, K]⟩ .f32) (W : FVec Ideal ⟨2, ![K, N]⟩ .f32) (Bw : FVec Ideal ⟨2, ![1, N]⟩ .f32)
    (A : FVec Ideal ⟨2, ![m, K]⟩ .f32) (Wb : FVec Ideal ⟨2, ![K, N]⟩ .f32) (B : FVec Ideal ⟨2, ![1, N]⟩ .f32)
    (hA : ∀ a c, A (ix2 a c) = X (ix2 (row a) c)) (hW : ∀ c b, Wb (ix2 c b) = W (ix2 c b))
    (hB : ∀ q, B (ix2 (0 : Fin 1) q) = Bw (ix2 (0 : Fin 1) q))
    (ht : FTy.bf16.bits < FTy.f32.bits)
    (hs' : (⟨2, ![1, N]⟩ : Shape).ShapeCasts ⟨2, ![1, N]⟩) (hbc : (⟨2, ![1, N]⟩ : Shape).Broadcasts ⟨2, ![m, N]⟩)
    (hrow : (⟨2, ![1, N]⟩ : Shape).BroadcastsInDim ⟨2, ![M, N]⟩ (![0, 1] : Fin 2 → Fin 2))
    (a : Fin m) (q : Fin N) :
    addf (matmul Dk none (truncf .bf16 A ht) (truncf .bf16 Wb ht) (constant (F := Ideal) ⟨2, ![m, N]⟩ .f32 0x00000000#32))
        (broadcastTo ⟨2, ![m, N]⟩ (shapeCast ⟨2, ![1, N]⟩ B hs') hbc) (ix2 a q)
      = layer X W Bw hrow (ix2 (row a) q) := by
  subst hDk
  unfold layer
  rw [addf_apply, addf_apply, LibBiasRows.rowBcast_apply, broadcastTo_1b_ab_apply, shapeCast_self, hB,
    LibRowBlockDot.matmul_rowBlock_apply none none X W (truncf .bf16 A ht) (truncf .bf16 Wb ht) row
      (fun a c => (truncf_apply A ht _).trans (hA a c)) (fun c b => (truncf_apply Wb ht _).trans (hW c b)) a q]

/-- The rectifier on a block of rows, the block first passed through an identity cast: the maximum with a splat
    zero is entry (`row a`, q) of the host's maximum with a broadcast zero constant. -/
theorem relu_rows (row : Fin m → Fin M) (X : FVec Ideal ⟨2, ![M, N]⟩ .f32) (A : FVec Ideal ⟨2, ![m, N]⟩ .f32)
    (hA : ∀ a q, A (ix2 a q) = X (ix2 (row a) q))
    (hs : (⟨2, ![m, N]⟩ : Shape).ShapeCasts ⟨2, ![m, N]⟩)
    (hz : (⟨0, ![]⟩ : Shape).BroadcastsInDim ⟨2, ![M, N]⟩ (![] : Fin 0 → Fin 2)) (a : Fin m) (q : Fin N) :
    maximumf (shapeCast ⟨2, ![m, N]⟩ A hs) (broadcast ⟨2, ![m, N]⟩ (Scalar.ofBits (F := Ideal) .f32 0x00000000#32)) (ix2 a q)
      = relu X hz (ix2 (row a) q) := by
  unfold relu
  rw [maximumf_apply, maximumf_apply, shapeCast_self, hA, broadcast_apply, LibBiasRows.zeroSplat_apply]
  rfl

/-- max(X, 0)·W + B on a block of rows: `relu_rows` feeding `dense_rows`. -/
theorem reluDense_rows (row : Fin m → Fin M)
    (Dk : DotDims ⟨2, ![m, K]⟩ ⟨2, ![K, N]⟩ ⟨2, ![m, N]⟩) (hDk : Dk = DotDims.plain m K N)
    (X : FVec Ideal ⟨2, ![M, K]⟩ .f32) (W : FVec Ideal ⟨2, ![K, N]⟩ .f32) (Bw : FVec Ideal ⟨2, ![1, N]⟩ .f32)
    (A : FVec Ideal ⟨2, ![m, K]⟩ .f32) (Wb : FVec Ideal ⟨2, ![K, N]⟩ .f32) (B : FVec Ideal ⟨2, ![1, N]⟩ .f32)
    (hA : ∀ a c, A (ix2 a c) = X (ix2 (row a) c)) (hW : ∀ c b, Wb (ix2 c b) = W (ix2 c b))
    (hB : ∀ q, B (ix2 (0 : Fin 1) q) = Bw (ix2 (0 : Fin 1) q))
    (ht : FTy.bf16.bits < FTy.f32.bits)
    (hs : (⟨2, ![m, K]⟩ : Shape).ShapeCasts ⟨2, ![m, K]⟩)
    (hs' : (⟨2, ![1, N]⟩ : Shape).ShapeCasts ⟨2, ![1, N]⟩) (hbc : (⟨2, ![1, N]⟩ : Shape).Broadcasts ⟨2, ![m, N]⟩)
    (hrow : (⟨2, ![1, N]⟩ : Shape).BroadcastsInDim ⟨2, ![M, N]⟩ (![0, 1] : Fin 2 → Fin 2))
    (hz : (⟨0, ![]⟩ : Shape).BroadcastsInDim ⟨2, ![M, K]⟩ (![] : Fin 0 → Fin 2))
    (a : Fin m) (q : Fin N) :
    addf (matmul Dk none
          (truncf .bf16 (maximumf (shapeCast ⟨2, ![m, K]⟩ A hs) (broadcast ⟨2, ![m, K]⟩ (Scalar.ofBits (F := Ideal) .f32 0x00000000#32))) ht)
          (truncf .bf16 Wb ht) (constant (F := Ideal) ⟨2, ![m, N]⟩ .f32 0x00000000#32))
        (broadcastTo ⟨2, ![m, N]⟩ (shapeCast ⟨2, ![1, N]⟩ B hs') hbc) (ix2 a q)
      = layer (relu X hz) W Bw hrow (ix2 (row a) q) :=
  dense_rows row Dk hDk _ W Bw _ Wb B (fun a c => relu_rows row X A hA hs hz a c) hW hB ht hs' hbc hrow a q

/-- A layer whose bias row is the zero vector reshaped to a row is the plain product: 0 is added to every entry. -/
theorem layer_zeroRow (X : FVec Ideal ⟨2, ![M, K]⟩ .f32) (W : FVec Ideal ⟨2, ![K, N]⟩ .f32)
    (h0 : (⟨0, ![]⟩ : Shape).BroadcastsInDim ⟨1, ![N]⟩ (![] : Fin 0 → Fin 1))
    (hc : (⟨1, ![N]⟩ : Shape).ShapeCasts ⟨2, ![1, N]⟩)
    (hrow : (⟨2, ![1, N]⟩ : Shape).BroadcastsInDim ⟨2, ![M, N]⟩ (![0, 1] : Fin 2 → Fin 2)) :
    layer X W (shapeCast ⟨2, ![1, N]⟩ (broadcastInDim ⟨1, ![N]⟩ ![] h0 (constant (F := Ideal) ⟨0, ![]⟩ .f32 0x00000000#32)) hc) hrow
      = Host.dotGeneral (DotDims.plain M K N) none X W := by
  funext i
  obtain ⟨r, q, rfl⟩ : ∃ (r : Fin M) (q : Fin N), i = ix2 r q := ⟨i 0, i 1, eq_ix2 i⟩
  unfold layer
  rw [addf_apply, LibBiasRows.rowBcast_apply, shapeCast_a_1a_apply, LibBiasRows.zeroSplat_apply]
  show _ + Ideal.ofBits .f32 0x00000000#32 = _
  rw [Ideal.ofBits_zero_f32, add_zero]

end Cert.LibReluDense

end
-- ==== Proof.Region0.lean ====
/-
  Region 0 of the kernel program: what its output array holds after the region.

  The region runs over 20 grid points. At point t it holds rows 5000·t … 5000·t + 4999 of the activation matrix X
  [100000, 256], the whole weight matrix W [256, 64] and the whole bias row B [1, 64], computes (block of X)·W plus the
  bias row repeated down the block, and writes the 5000 × 64 result to rows 5000·t … 5000·t + 4999 of the output array.

  Claim: afterwards the output array is the dense layer X·W + B of the WHOLE arrays. Two facts carry it. Rows are
  independent: row r of X·W + B depends on row r of X alone (and on all of W and B), so the layer computed on a block of
  rows is the same block of rows of the layer computed on the whole matrix. The blocks tile the rows: row r lies in the
  block of point r / 5000 and of no other, and every point writes its block back, so every entry of the output array is
  written, with the layer's value at that entry.
-/
import proofs.«180958_j82334523064419_1_alg».proof.Proof.Gen.KernelIdeal.Frame
import proofs.«180958_j82334523064419_1_alg».proof.Proof.LibReluDense
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Cert.LibReluDense
open Idealize.ShloMosaic Idealize.ShloMosaic.TcCoe Idealize.ShloMosaic.ValueIdx Idealize.SL.Sem

/-- The zero offset pair, as the constant function. -/
theorem hz : (![0, 0] : Fin 2 → Nat) = fun _ => 0 := funext fun a => by fin_cases a <;> rfl

/-- The block indices at each of the 20 points: the activation window and the output window are at block (t, 0) — they
    move down the rows together —, the weight window and the bias window stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Rows are independent: if the block x0 holds rows `row a` of X, and x1, x2 are W and the bias row, then what the
    body stores at entry (a, q) of the block is entry (`row a`, q) of the layer of the whole arrays. The body's
    arithmetic is the dense layer on a block of rows. -/
theorem pay_rows (row : Fin 5000 → Fin 100000)
    (X : FVec Ideal ⟨2, ![100000, 256]⟩ .f32) (W : FVec Ideal ⟨2, ![256, 64]⟩ .f32) (Bw : FVec Ideal ⟨2, ![1, 64]⟩ .f32)
    (x0 : Vec Ideal S5000x256 .f32) (x1 : Vec Ideal S256x64 .f32) (x2 : Vec Ideal S1x64 .f32)
    (hA : ∀ a k, x0 (ix2 a k) = X (ix2 (row a) k)) (hW : ∀ k q, x1 (ix2 k q) = W (ix2 k q))
    (hB : ∀ q, x2 (ix2 (0 : Fin 1) q) = Bw (ix2 (0 : Fin 1) q))
    (hrow : (⟨2, ![1, 64]⟩ : Shape).BroadcastsInDim ⟨2, ![100000, 64]⟩ (![0, 1] : Fin 2 → Fin 2))
    (a : Fin 5000) (q : Fin 64) :
    k0_pay1 x0 x1 x2 (ix2 a q) = layer X W Bw hrow (ix2 (row a) q) := by
  unfold k0_pay1
  exact dense_rows row _ rfl X W Bw x0 x1 x2 hA hW hB _ _ _ hrow a q

section
variable (V : (c : Dev nD) → (b : Ref sig .tc) → Buf (Elt Ideal) ((c : Thread nD τ).loc b)) (c : Dev nD)

/-- Row a of point t's block is a row of the array: 5000·t + a < 100000 for t < 20, a < 5000. -/
theorem row_lt (t : Fin cfg0.N) (a : Fin 5000) : 5000 * t.val + a.val < 100000 := by
  have hN : cfg0.N = 20 := N_0
  have := t.isLt
  have := a.isLt
  omega

/-- The block-to-array row map of point t: row a of the block is row 5000·t + a of the array. -/
def rowAt (t : Fin cfg0.N) (a : Fin 5000) : Fin 100000 := ⟨5000 * t.val + a.val, row_lt t a⟩

/-- The activation block at point t is rows 5000·t … of the activation array: entry (a, k) of the block sits at
    (t·5000 + a, 0·256 + k). -/
theorem blk0_apply (t : Fin cfg0.N) (a : Fin 5000) (k : Fin 256) :
    iblk0 V c 0 t (ix2 a k) = V c main_arg0 (ix2 (rowAt t a) k) := by
  obtain ⟨e0, e1, -⟩ := idx_facts t
  show V c main_arg0 (((cfg0.win 0).blk t).view.emb (ix2 a k)) = V c main_arg0 _
  congr 1
  funext ax; apply Fin.ext
  match ax with
  | ⟨0, _⟩ => show win0_0.index t (0 : Fin 2) * 5000 + 1 * a.val = 5000 * t.val + a.val; omega
  | ⟨1, _⟩ => show win0_0.index t (1 : Fin 2) * 256 + 1 * k.val = k.val; omega

/-- The weight block at every point is the whole weight matrix. -/
theorem blk1_apply (t : Fin cfg0.N) (k : Fin 256) (q : Fin 64) :
    iblk0 V c 1 t (ix2 k q) = V c main_arg2 (ix2 k q) := by
  obtain ⟨-, -, e2, e3, -⟩ := idx_facts t
  show V c main_arg2 (((cfg0.win 1).blk t).view.emb (ix2 k q)) = V c main_arg2 _
  congr 1
  funext ax; apply Fin.ext
  match ax with
  | ⟨0, _⟩ => show win0_1.index t (0 : Fin 2) * 256 + 1 * k.val = k.val; omega
  | ⟨1, _⟩ => show win0_1.index t (1 : Fin 2) * 64 + 1 * q.val = q.val; omega

/-- The bias block at every point is the whole bias row. -/
theorem blk2_apply (t : Fin cfg0.N) (q : Fin 64) :
    iblk0 V c 2 t (ix2 (0 : Fin 1) q) = V c main_v28 (ix2 (0 : Fin 1) q) := by
  obtain ⟨-, -, -, -, e4, e5, -⟩ := idx_facts t
  show V c main_v28 (((cfg0.win 2).blk t).view.emb (ix2 (0 : Fin 1) q)) = V c main_v28 _
  congr 1
  funext ax; apply Fin.ext
  match ax with
  | ⟨0, _⟩ => show win0_2.index t (0 : Fin 2) * 1 + 1 * 0 = 0; omega
  | ⟨1, _⟩ => show win0_2.index t (1 : Fin 2) * 64 + 1 * q.val = q.val; omega

/-- Entry (a, q) of the output block at point t sits at (5000·t + a, q) of the output array: the same rows as the
    activation block. -/
theorem out_emb (t : Fin cfg0.N) (a : Fin 5000) (q : Fin 64) :
    ((cfg0.win 3).blk t).view.emb (ix2 a q) = ix2 (rowAt t a) q := by
  obtain ⟨-, -, -, -, -, -, e6, e7⟩ := idx_facts t
  funext ax; apply Fin.ext
  match ax with
  | ⟨0, _⟩ => show win0_3.index t (0 : Fin 2) * 5000 + 1 * a.val = 5000 * t.val + a.val; omega
  | ⟨1, _⟩ => show win0_3.index t (1 : Fin 2) * 64 + 1 * q.val = q.val; omega

end

section
variable (V : (c : Dev nD) → (b : Ref sig .tc) → Buf (Elt Ideal) ((c : Thread nD τ).loc b)) (c : Dev nD)
  (hrow : (⟨2, ![1, 64]⟩ : Shape).BroadcastsInDim ⟨2, ![100000, 64]⟩ (![0, 1] : Fin 2 → Fin 2))

/-- What point t writes back is block t of the layer of the whole arrays: the body's one store covers the staging
    buffer, its payload is the dense layer on the point's blocks, the activation block and the output block are the
    same rows of their arrays, and rows are independent. -/
theorem flushed_eq (t : Fin cfg0.N) :
    (dat0 (F := Ideal) V c).flushed 3 t
      = ((cfg0.win 3).blk t).view.read (Elt Ideal)
          (layer (M := 100000) (K := 256) (N := 64) (V c main_arg0) (V c main_arg2) (V c main_v28) hrow) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S1x64) hz]
  funext j
  obtain ⟨a, q, rfl⟩ : ∃ (a : Fin 5000) (q : Fin 64), j = ix2 a q := ⟨j 0, j 1, eq_ix2 j⟩
  show k0_pay1 (iblk0 V c 0 t) (iblk0 V c 1 t) (iblk0 V c 2 t) (ix2 a q)
      = layer (V c main_arg0) (V c main_arg2) (V c main_v28) hrow (((cfg0.win 3).blk t).view.emb (ix2 a q))
  rw [out_emb t a q]
  exact pay_rows (rowAt t) (V c main_arg0) (V c main_arg2) (V c main_v28) (iblk0 V c 0 t) (iblk0 V c 1 t) (iblk0 V c 2 t)
    (blk0_apply V c t) (blk1_apply V c t) (blk2_apply V c t) hrow a q

end

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v29).slice (win0_3.rect t)).set ↔ _
  rw [View.set_slice_whole, Rect.mem_set_unit]
  exact Iff.rfl

/-- The blocks tile the rows: entry (r, q) of the output array is in the block of point r / 5000, which writes back
    (r / 5000 < 20 since r < 100000; (r / 5000)·5000 ≤ r < (r / 5000)·5000 + 5000; and q < 64). -/
theorem cover (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the region the output array is the dense layer of the whole arrays: every point writes block t of it, and
    the blocks cover the array. -/
theorem out_value (V : (c : Dev nD) → (b : Ref sig .tc) → Buf (Elt Ideal) ((c : Thread nD τ).loc b)) (c : Dev nD)
    (hrow : (⟨2, ![1, 64]⟩ : Shape).BroadcastsInDim ⟨2, ![100000, 64]⟩ (![0, 1] : Fin 2 → Fin 2)) :
    (dat0 (F := Ideal) V c).arrAt 3 cfg0.N
      = layer (M := 100000) (K := 256) (N := 64) (V c main_arg0) (V c main_arg2) (V c main_v28) hrow :=
  (dat0 (F := Ideal) V c).arrAt_eq_of_cover 3 (layer (V c main_arg0) (V c main_arg2) (V c main_v28) hrow)
    (fun t _ => flushed_eq V c hrow t) cover

end Cert.KernelIdeal.Region0

end
-- ==== Proof.Region1.lean ====
/-
  Region 1 of the kernel program: what its output array holds after the region.

  The region walks a grid of 20 points. At point t it takes rows 5000·t … 5000·t + 4999 of the activation array X,
  the whole weight matrix W and the whole bias row B, computes max(block, 0)·W + B on that block of rows and writes the
  5000×64 result over rows 5000·t … 5000·t + 4999 of the output array. Row r of max(X, 0)·W + B depends on row r of X
  alone, so the block computed at point t is exactly rows 5000·t … 5000·t + 4999 of the layer of the WHOLE arrays; and
  the 20 blocks of 5000 rows tile the 100000 rows (row r lies in block r / 5000). Hence after the region the output
  array is max(X, 0)·W + B, the bias row repeated down all the rows.
-/
import proofs.«180958_j82334523064419_1_alg».proof.Proof.Gen.KernelIdeal.Frame
import proofs.«180958_j82334523064419_1_alg».proof.Proof.LibReluDense
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.LibReluDense
open Idealize.ShloMosaic Idealize.ShloMosaic.TcCoe Idealize.ShloMosaic.ValueIdx Idealize.SL.Sem

/-- The offsets (0, 0) are the zero offsets. -/
theorem zero_offsets : (![0, 0] : Fin 2 → Nat) = fun _ => 0 := funext fun a => by fin_cases a <;> rfl

/-- The block indices over the grid: at point t the activation and the output windows sit at block (t, 0), the weight
    and the bias windows at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body on a block of rows: if row a of the block x0 is row `row a` of X, and x1 and x2 are W and the bias row,
    then entry (a, q) of what the body stores is entry (`row a`, q) of max(X, 0)·W + B. -/
theorem body_rows (row : Fin 5000 → Fin 100000)
    (X : FVec Ideal ⟨2, ![100000, 64]⟩ .f32) (W : FVec Ideal ⟨2, ![64, 64]⟩ .f32) (Bw : FVec Ideal ⟨2, ![1, 64]⟩ .f32)
    (x0 : Vec Ideal S5000x64 .f32) (x1 : Vec Ideal S64x64 .f32) (x2 : Vec Ideal S1x64 .f32)
    (hA : ∀ a k, x0 (ix2 a k) = X (ix2 (row a) k)) (hW : ∀ k q, x1 (ix2 k q) = W (ix2 k q))
    (hB : ∀ q, x2 (ix2 (0 : Fin 1) q) = Bw (ix2 (0 : Fin 1) q))
    (hrow : (⟨2, ![1, 64]⟩ : Shape).BroadcastsInDim ⟨2, ![100000, 64]⟩ (![0, 1] : Fin 2 → Fin 2))
    (hz : (⟨0, ![]⟩ : Shape).BroadcastsInDim ⟨2, ![100000, 64]⟩ (![] : Fin 0 → Fin 2))
    (a : Fin 5000) (q : Fin 64) :
    k1_pay1 x0 x1 x2 (ix2 a q) = layer (relu X hz) W Bw hrow (ix2 (row a) q) := by
  unfold k1_pay1
  exact reluDense_rows row _ rfl X W Bw x0 x1 x2 hA hW hB _ _ _ _ hrow hz a q

section Blocks

variable (V : (c : Dev nD) → (b : Ref sig .tc) → Buf (Elt Ideal) ((c : Thread nD τ).loc b))

/-- The activation block at point t is rows 5000·t … 5000·t + 4999 of the activation array. -/
theorem act_block_apply (c : Dev nD) (t : Fin cfg1.N) (row : Fin 5000 → Fin 100000)
    (hr : ∀ a, (row a).val = 5000 * t.val + a.val) (a : Fin 5000) (k : Fin 64) :
    iblk1 V c 0 t (ix2 a k) = V c main_v45 (ix2 (row a) k) := by
  obtain ⟨e0, e1, -⟩ := block_indices t
  show V c main_v45 (((cfg1.win 0).blk t).view.emb (ix2 a k)) = V c main_v45 _
  refine congrArg (V c main_v45) (funext fun ax => Fin.ext ?_)
  match ax with
  | ⟨0, _⟩ => show win1_0.index t (0 : Fin 2) * 5000 + 1 * a.val = (row a).val; rw [e0, hr]; omega
  | ⟨1, _⟩ => show win1_0.index t (1 : Fin 2) * 64 + 1 * k.val = k.val; rw [e1]; omega

/-- The weight block at every point is the whole weight matrix. -/
theorem weight_block_apply (c : Dev nD) (t : Fin cfg1.N) (k : Fin 64) (q : Fin 64) :
    iblk1 V c 1 t (ix2 k q) = V c main_arg4 (ix2 k q) := by
  obtain ⟨-, -, e0, e1, -⟩ := block_indices t
  show V c main_arg4 (((cfg1.win 1).blk t).view.emb (ix2 k q)) = V c main_arg4 _
  refine congrArg (V c main_arg4) (funext fun ax => Fin.ext ?_)
  match ax with
  | ⟨0, _⟩ => show win1_1.index t (0 : Fin 2) * 64 + 1 * k.val = k.val; rw [e0]; omega
  | ⟨1, _⟩ => show win1_1.index t (1 : Fin 2) * 64 + 1 * q.val = q.val; rw [e1]; omega

/-- The bias block at every point is the whole bias row. -/
theorem bias_block_apply (c : Dev nD) (t : Fin cfg1.N) (q : Fin 64) :
    iblk1 V c 2 t (ix2 (0 : Fin 1) q) = V c main_v47 (ix2 (0 : Fin 1) q) := by
  obtain ⟨-, -, -, -, e0, e1, -⟩ := block_indices t
  show V c main_v47 (((cfg1.win 2).blk t).view.emb (ix2 (0 : Fin 1) q)) = V c main_v47 _
  refine congrArg (V c main_v47) (funext fun ax => Fin.ext ?_)
  match ax with
  | ⟨0, _⟩ => show win1_2.index t (0 : Fin 2) * 1 + 1 * 0 = 0; rw [e0]
  | ⟨1, _⟩ => show win1_2.index t (1 : Fin 2) * 64 + 1 * q.val = q.val; rw [e1]; omega

/-- What point t writes back is block t of max(X, 0)·W + B of the whole arrays: entry (a, q) of the body's result on
    rows 5000·t … is entry (5000·t + a, q) of the layer, and the output block's entry (a, q) sits at (5000·t + a, q). -/
theorem written_block (c : Dev nD)
    (hrow : (⟨2, ![1, 64]⟩ : Shape).BroadcastsInDim ⟨2, ![100000, 64]⟩ (![0, 1] : Fin 2 → Fin 2))
    (hz : (⟨0, ![]⟩ : Shape).BroadcastsInDim ⟨2, ![100000, 64]⟩ (![] : Fin 0 → Fin 2))
    (t : Fin cfg1.N) :
    (dat1 (F := Ideal) V c).flushed 3 t = ((cfg1.win 3).blk t).view.read (Elt Ideal)
      (layer (M := 100000) (K := 64) (N := 64) (relu (V c main_v45) hz) (V c main_arg4) (V c main_v47) hrow) := by
  show (cfg1.win 3).cut (grid1.coords t) ((dat1 (F := Ideal) V c).after 3 t) = _
  rw [after1_3]
  unfold out1_3
  rw [View.canon_unit_zero zero_offsets]
  simp only [View.ld_unit_zero (S := S5000x64) zero_offsets, View.ld_unit_zero (S := S64x64) zero_offsets,
    View.ld_unit_zero (S := S1x64) zero_offsets]
  funext j
  obtain ⟨-, -, -, -, -, -, e0, e1⟩ := block_indices t
  have hN : grid1.N = 20 := N_1
  have ht : t.val < grid1.N := t.isLt
  rw [hN] at ht
  let row : Fin 5000 → Fin 100000 := fun a => ⟨5000 * t.val + a.val, by have := a.isLt; omega⟩
  have hj : (j : S5000x64.Idx) = ix2 (j 0 : Fin 5000) (j 1 : Fin 64) := @eq_ix2 5000 64 j
  show k1_pay1 (iblk1 V c 0 t) (iblk1 V c 1 t) (iblk1 V c 2 t) j = layer _ _ _ hrow (((cfg1.win 3).blk t).view.emb j)
  refine ((congrArg (k1_pay1 (iblk1 V c 0 t) (iblk1 V c 1 t) (iblk1 V c 2 t)) hj).trans
    (body_rows row (V c main_v45) (V c main_arg4) (V c main_v47) _ _ _
      (fun a k => act_block_apply V c t row (fun _ => rfl) a k) (fun k q => weight_block_apply V c t k q)
      (fun q => bias_block_apply V c t q) hrow hz (j 0) (j 1))).trans ?_
  refine congrArg _ (funext fun ax => Fin.ext ?_)
  match ax with
  | ⟨0, _⟩ => show 5000 * t.val + (j 0).val = win1_3.index t (0 : Fin 2) * 5000 + 1 * (j 0).val; rw [e0]; omega
  | ⟨1, _⟩ => show (j 1).val = win1_3.index t (1 : Fin 2) * 64 + 1 * (j 1).val; rw [e1]; omega

end Blocks

/-- An index of the output array is in point t's block iff each coordinate is in the block's range on its axis. -/
theorem mem_out_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v48).slice (win1_3.rect t)).set ↔ _
  rw [View.set_slice_whole, Rect.mem_set_unit]
  exact Iff.rfl

/-- The blocks tile the rows: row r of the output array lies in the block of point r / 5000, which is written back. -/
theorem rows_covered (i : S100000x64.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 64 := (i 1).isLt
  have hlt : (i 0).val / 5000 < grid1.N := by rw [hN]; omega
  obtain ⟨-, -, -, -, -, -, e0, e1⟩ := block_indices ⟨(i 0).val / 5000, hlt⟩
  refine ⟨⟨(i 0).val / 5000, hlt⟩, flush1_3 _, ?_⟩
  rw [mem_out_block]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    rw [e1]
    omega

/-- After the region the output array is max(X, 0)·W + B of the whole arrays: every point writes its block of that
    one array, and the blocks cover it. -/
theorem out_value (V : (c : Dev nD) → (b : Ref sig .tc) → Buf (Elt Ideal) ((c : Thread nD τ).loc b)) (c : Dev nD)
    (hrow : (⟨2, ![1, 64]⟩ : Shape).BroadcastsInDim ⟨2, ![100000, 64]⟩ (![0, 1] : Fin 2 → Fin 2))
    (hz : (⟨0, ![]⟩ : Shape).BroadcastsInDim ⟨2, ![100000, 64]⟩ (![] : Fin 0 → Fin 2)) :
    (dat1 (F := Ideal) V c).arrAt 3 cfg1.N
      = layer (M := 100000) (K := 64) (N := 64) (relu (V c main_v45) hz) (V c main_arg4) (V c main_v47) hrow :=
  (dat1 (F := Ideal) V c).arrAt_eq_of_cover 3 _ (fun t _ => written_block V c hrow hz t) (fun i => rows_covered i)

end Cert.KernelIdeal.Region1

end
-- ==== Proof.Region2.lean ====
/-
  Region 2 of the kernel program: what its output array holds after the region.

  The region walks 20 grid points. At point t it holds rows 5000·t … 5000·t + 4999 of the activation matrix X, the
  whole weight matrix W and the whole bias row B, computes max(block, 0)·W + B on the block, and writes the 5000×11
  result over rows 5000·t … 5000·t + 4999 of the output. Row r of max(X, 0)·W + B depends on row r of X alone, so the
  block a point writes is exactly those rows of the layer of the WHOLE arrays; and the twenty blocks tile the 100000
  rows (row r lies in the block of point r / 5000), so the array ends holding the whole layer.
-/
import proofs.«180958_j82334523064419_1_alg».proof.Proof.Gen.KernelIdeal.Frame
import proofs.«180958_j82334523064419_1_alg».proof.Proof.LibReluDense
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Cert.LibReluDense
open Idealize.ShloMosaic Idealize.ShloMosaic.TcCoe Idealize.ShloMosaic.ValueIdx Idealize.SL.Sem

/-- The body's loads and its store start at the origin of their blocks. -/
theorem origin : (![0, 0] : Fin 2 → Nat) = fun _ => 0 := funext fun a => by fin_cases a <;> rfl

/-- The block indices over the grid: the activation block and the output block of point t are block t along the rows,
    block 0 along the columns; the weight matrix and the bias row are always their one block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's arithmetic on a block of rows: entry (a, q) of max(A, 0)·W + B, A holding rows `row a` of X, is entry
    (`row a`, q) of the layer of the whole arrays. -/
theorem pay_rows (row : Fin 5000 → Fin 100000)
    (X : FVec Ideal ⟨2, ![100000, 64]⟩ .f32) (W : FVec Ideal ⟨2, ![64, 11]⟩ .f32) (Bw : FVec Ideal ⟨2, ![1, 11]⟩ .f32)
    (x0 : Vec Ideal S5000x64 .f32) (x1 : Vec Ideal S64x11 .f32) (x2 : Vec Ideal S1x11 .f32)
    (hA : ∀ a k, x0 (ix2 a k) = X (ix2 (row a) k)) (hW : ∀ k q, x1 (ix2 k q) = W (ix2 k q))
    (hB : ∀ q, x2 (ix2 (0 : Fin 1) q) = Bw (ix2 (0 : Fin 1) q))
    (hrow : (⟨2, ![1, 11]⟩ : Shape).BroadcastsInDim ⟨2, ![100000, 11]⟩ (![0, 1] : Fin 2 → Fin 2))
    (hz : (⟨0, ![]⟩ : Shape).BroadcastsInDim ⟨2, ![100000, 64]⟩ (![] : Fin 0 → Fin 2))
    (a : Fin 5000) (q : Fin 11) :
    k2_pay1 (F := Ideal) x0 x1 x2 (ix2 a q) = layer (relu X hz) W Bw hrow (ix2 (row a) q) := by
  unfold k2_pay1
  exact reluDense_rows row _ rfl X W Bw x0 x1 x2 hA hW hB _ _ _ _ hrow hz a q

section Blocks

variable (V : (c : Dev nD) → (b : Ref sig .tc) → Buf (Elt Ideal) ((c : Thread nD τ).loc b)) (c : Dev nD)

/-- The activation block of point t is rows 5000·t … 5000·t + 4999 of the activation array. -/
theorem blk_act (t : Fin cfg2.N) (a : Fin 5000) (k : Fin 64) (h : 5000 * t.val + a.val < 100000) :
    (iblk2 V c 0 t : Vec Ideal S5000x64 .f32) (ix2 a k)
      = (V c main_v64 : Vec Ideal S100000x64 .f32) (ix2 ⟨5000 * t.val + a.val, h⟩ k) := by
  obtain ⟨e0, e1, -⟩ := idx_facts t
  show (V c main_v64 : Vec Ideal S100000x64 .f32) (((cfg2.win 0).blk t).view.emb (ix2 a k)) = _
  refine congrArg _ (funext fun ax => Fin.ext ?_)
  match ax with
  | ⟨0, _⟩ => show win2_0.index t (0 : Fin 2) * 5000 + 1 * a.val = 5000 * t.val + a.val; omega
  | ⟨1, _⟩ => show win2_0.index t (1 : Fin 2) * 64 + 1 * k.val = k.val; omega

/-- The weight block of every point is the whole weight matrix. -/
theorem blk_weight (t : Fin cfg2.N) (k : Fin 64) (q : Fin 11) :
    (iblk2 V c 1 t : Vec Ideal S64x11 .f32) (ix2 k q) = (V c main_arg6 : Vec Ideal S64x11 .f32) (ix2 k q) := by
  obtain ⟨-, -, e0, e1, -⟩ := idx_facts t
  show (V c main_arg6 : Vec Ideal S64x11 .f32) (((cfg2.win 1).blk t).view.emb (ix2 k q)) = _
  refine congrArg _ (funext fun ax => Fin.ext ?_)
  match ax with
  | ⟨0, _⟩ => show win2_1.index t (0 : Fin 2) * 64 + 1 * k.val = k.val; omega
  | ⟨1, _⟩ => show win2_1.index t (1 : Fin 2) * 11 + 1 * q.val = q.val; omega

/-- The bias block of every point is the whole bias row. -/
theorem blk_bias (t : Fin cfg2.N) (q : Fin 11) :
    (iblk2 V c 2 t : Vec Ideal S1x11 .f32) (ix2 (0 : Fin 1) q) = (V c main_v65 : Vec Ideal S1x11 .f32) (ix2 (0 : Fin 1) q) := by
  obtain ⟨-, -, -, -, e0, e1, -⟩ := idx_facts t
  show (V c main_v65 : Vec Ideal S1x11 .f32) (((cfg2.win 2).blk t).view.emb (ix2 (0 : Fin 1) q)) = _
  refine congrArg _ (funext fun ax => Fin.ext ?_)
  match ax with
  | ⟨0, _⟩ => show win2_2.index t (0 : Fin 2) * 1 + 1 * (0 : Fin 1).val = (0 : Fin 1).val; omega
  | ⟨1, _⟩ => show win2_2.index t (1 : Fin 2) * 11 + 1 * q.val = q.val; omega

/-- What point t writes back is block t of the layer of the whole arrays. -/
theorem flushed_eq
    (hrow : (⟨2, ![1, 11]⟩ : Shape).BroadcastsInDim ⟨2, ![100000, 11]⟩ (![0, 1] : Fin 2 → Fin 2))
    (hz : (⟨0, ![]⟩ : Shape).BroadcastsInDim ⟨2, ![100000, 64]⟩ (![] : Fin 0 → Fin 2)) (t : Fin cfg2.N) :
    (dat2 (F := Ideal) V c).flushed 3 t = ((cfg2.win 3).blk t).view.read (Elt Ideal)
      (layer (M := 100000) (K := 64) (N := 11) (relu (V c main_v64) hz) (V c main_arg6) (V c main_v65) hrow) := by
  have hN : grid2.N = 20 := N_2
  have ht : t.val < 20 := hN ▸ t.isLt
  show (cfg2.win 3).cut (grid2.coords t) ((dat2 (F := Ideal) V c).after 3 t) = _
  rw [after2_3]
  unfold out2_3
  rw [View.canon_unit_zero origin]
  simp only [View.ld_unit_zero (S := S5000x64) origin, View.ld_unit_zero (S := S64x11) origin,
    View.ld_unit_zero (S := S1x11) origin]
  obtain ⟨-, -, -, -, -, -, e0, e1⟩ := idx_facts t
  funext j
  obtain ⟨a, q, rfl⟩ : ∃ (a : Fin 5000) (q : Fin 11), j = ix2 a q := ⟨j 0, j 1, eq_ix2 j⟩
  have ha : 5000 * t.val + a.val < 100000 := by have := a.isLt; omega
  refine (pay_rows (fun a => ⟨5000 * t.val + a.val, by have := a.isLt; omega⟩) (V c main_v64) (V c main_arg6) (V c main_v65)
    _ _ _ (fun a k => blk_act V c t a k _) (fun k q => blk_weight V c t k q) (fun q => blk_bias V c t q) hrow hz a q).trans ?_
  show _ = layer (relu (V c main_v64) hz) (V c main_arg6) (V c main_v65) hrow (((cfg2.win 3).blk t).view.emb (ix2 a q))
  refine congrArg _ (funext fun ax => Fin.ext ?_)
  match ax with
  | ⟨0, _⟩ => show 5000 * t.val + a.val = win2_3.index t (0 : Fin 2) * 5000 + 1 * a.val; omega
  | ⟨1, _⟩ => show q.val = win2_3.index t (1 : Fin 2) * 11 + 1 * q.val; omega

/-- A row-column index lies in point t's output block iff each coordinate lies in the block's range on its axis. -/
theorem mem_blk (t : Fin cfg2.N) (i : S100000x11.Idx) :
    i ∈ ((cfg2.win 3).blk t).view.set ↔ ∀ a : Fin 2, win2_3.index t a * S5000x11.size a ≤ (i a).val ∧ (i a).val < win2_3.index t a * S5000x11.size a + S5000x11.size a := by
  show i ∈ ((View.whole main_v66).slice (win2_3.rect t)).set ↔ _
  rw [View.set_slice_whole, Rect.mem_set_unit]
  exact Iff.rfl

/-- The twenty output blocks tile the rows: row r lies in the block of point r / 5000. -/
theorem cover (i : S100000x11.Idx) :
    ∃ t : Fin cfg2.N, (cfg2.win 3).flush t = true ∧ i ∈ ((cfg2.win 3).blk t).view.set := by
  have hN : grid2.N = 20 := N_2
  have hi0 : (i 0).val < 100000 := (i 0).isLt
  have hi1 : (i 1).val < 11 := (i 1).isLt
  let t : Fin cfg2.N := ⟨(i 0).val / 5000, by show _ < grid2.N; omega⟩
  obtain ⟨-, -, -, -, -, -, e0, e1⟩ := idx_facts t
  have e0' : win2_3.index t (0 : Fin 2) = (i 0).val / 5000 := e0
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 11 ≤ (i 1).val ∧ (i 1).val < win2_3.index t (1 : Fin 2) * 11 + 11; omega

end Blocks

/-- The output array after the region is the layer of the whole arrays: every point writes its rows of it, and the
    points' blocks cover every row. -/
theorem out_value (V : (c : Dev nD) → (b : Ref sig .tc) → Buf (Elt Ideal) ((c : Thread nD τ).loc b)) (c : Dev nD)
    (hrow : (⟨2, ![1, 11]⟩ : Shape).BroadcastsInDim ⟨2, ![100000, 11]⟩ (![0, 1] : Fin 2 → Fin 2))
    (hz : (⟨0, ![]⟩ : Shape).BroadcastsInDim ⟨2, ![100000, 64]⟩ (![] : Fin 0 → Fin 2)) :
    (dat2 (F := Ideal) V c).arrAt 3 cfg2.N
      = layer (M := 100000) (K := 64) (N := 11) (relu (V c main_v64) hz) (V c main_arg6) (V c main_v65) hrow :=
  (dat2 (F := Ideal) V c).arrAt_eq_of_cover 3 _ (fun t _ => flushed_eq V c hrow hz t) cover

end Cert.KernelIdeal.Region2

end
-- ==== Proof.Glue.lean ====
/-
  The kernel program's buffers at each segment boundary, identified with the stages of the reference.

  Both programs compute a two-layer graph convolution with a linear head. From the edge list both build the same
  source and destination index vectors (with self loops), the same degree-normalisation weights, and the same
  gather / weight / scatter-add aggregation; the kernel program computes the three dense products in tiled regions
  where the reference calls one matrix product each, and it adds the first two layers' biases after the aggregation
  exactly as the reference does (its tiled products get a zero bias row, which adds 0 to every entry). Walking the
  kernel program's boundaries in order, each buffer that a later segment reads is shown to hold the reference's
  stage of the same arguments: the host stretches by reading their operations in order, the tiled regions by the
  whole-array form of a region's output.
-/
import proofs.«180958_j82334523064419_1_alg».proof.Proof.Gen.KernelIdeal.Frame
import proofs.«180958_j82334523064419_1_alg».proof.Proof.Gen.ReferenceIdeal.Read
import proofs.«180958_j82334523064419_1_alg».proof.Proof.LibReluDense
import proofs.«180958_j82334523064419_1_alg».proof.Proof.LibBiasRows
import proofs.«180958_j82334523064419_1_alg».proof.Proof.Region0
import proofs.«180958_j82334523064419_1_alg».proof.Proof.Region1
import proofs.«180958_j82334523064419_1_alg».proof.Proof.Region2

set_option maxRecDepth 16384

noncomputable section

namespace Cert.KernelIdeal.Glue

open Cert.KernelIdeal Cert.KernelIdeal.Gen Cert.LibReluDense Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 0's entry: the index vectors, the normalisation weights, a zero bias row, the arguments -/

set_option maxHeartbeats 4000000 in
theorem W1_v26 (c : Dev nD) : W1 m ρ c (Proc.devRef .tc main_v26) = val_main_v26 (F := Ideal) (m ((c.tc : Thread nD τ).loc main_arg1)) := by
  show StableHlo.after hostOps0 (W0 m ρ c) (Proc.devRef .tc main_v26) = _
  after_results_simp <;> rfl

set_option maxHeartbeats 4000000 in
theorem W1_v3 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl

set_option maxHeartbeats 4000000 in
theorem W1_v6 (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results_simp <;> rfl

set_option maxHeartbeats 4000000 in
theorem W1_v28 (c : Dev nD) : W1 m ρ c (Proc.devRef .tc main_v28)
    = shapeCast S1x64 (broadcastInDim S64 ![] bcast_S_S64 (constant (F := Ideal) S_ .f32 0x00000000#32)) shapeCasts_S64_S1x64 := by
  show StableHlo.after hostOps0 (W0 m ρ c) (Proc.devRef .tc main_v28) = _
  after_results_simp <;> rfl

set_option maxHeartbeats 4000000 in
theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp <;> rfl

set_option maxHeartbeats 4000000 in
theorem W1_arg2 (c : Dev nD) : W1 m ρ c (Proc.devRef .tc main_arg2) = (m ((c.tc : Thread nD τ).loc main_arg2)) := by
  show StableHlo.after hostOps0 (W0 m ρ c) (Proc.devRef .tc main_arg2) = _
  after_results_simp <;> rfl

set_option maxHeartbeats 4000000 in
theorem W1_arg (c : Dev nD) (b : Ref sig .tc) (hb : b = main_arg3 ∨ b = main_arg4 ∨ b = main_arg5 ∨ b = main_arg6 ∨ b = main_arg7) :
    W1 m ρ c (Proc.devRef .tc b) = m ((c.tc : Thread nD τ).loc b) := by
  show StableHlo.after hostOps0 (W0 m ρ c) (Proc.devRef .tc b) = _
  rcases hb with rfl | rfl | rfl | rfl | rfl <;> (after_results_simp <;> rfl)

/-! ## Region 0's exit: the first dense product -/

theorem W2_v29 (c : Dev nD) : W2 m ρ c (Proc.devRef .tc main_v29) = val_main_v27 (F := Ideal) (m ((c.tc : Thread nD τ).loc main_arg0)) (m ((c.tc : Thread nD τ).loc main_arg2)) := by
  refine (W2_arr m ρ c 3).trans ?_
  refine (Region0.out_value (V1 m ρ) c bcast_S1x64_S100000x64_0_1).trans ?_
  show layer (W1 m ρ c (Proc.devRef .tc main_arg0)) (W1 m ρ c (Proc.devRef .tc main_arg2)) (W1 m ρ c (Proc.devRef .tc main_v28)) _ = _
  rw [W1_arg0, W1_arg2, W1_v28]
  exact layer_zeroRow _ _ _ _ _

theorem W2_v26 (c : Dev nD) : W2 m ρ c (Proc.devRef .tc main_v26) = val_main_v26 (F := Ideal) (m ((c.tc : Thread nD τ).loc main_arg1)) :=
  (W2_of_ne m ρ c main_v26 (by decide)).trans (W1_v26 m ρ c)
theorem W2_v3 (c : Dev nD) : W2 m ρ c (Proc.devRef .tc main_v3) = val_main_v3 (F := Ideal) (m ((c.tc : Thread nD τ).loc main_arg1)) :=
  (W2_of_ne m ρ c main_v3 (by decide)).trans (W1_v3 m ρ c)
theorem W2_v6 (c : Dev nD) : W2 m ρ c (Proc.devRef .tc main_v6) = val_main_v6 (F := Ideal) (m ((c.tc : Thread nD τ).loc main_arg1)) :=
  (W2_of_ne m ρ c main_v6 (by decide)).trans (W1_v6 m ρ c)
theorem W2_arg (c : Dev nD) (b : Ref sig .tc) (hb : b = main_arg3 ∨ b = main_arg4 ∨ b = main_arg5 ∨ b = main_arg6 ∨ b = main_arg7) :
    W2 m ρ c (Proc.devRef .tc b) = m ((c.tc : Thread nD τ).loc b) :=
  (W2_of_ne m ρ c b (by rcases hb with rfl | rfl | rfl | rfl | rfl <;> decide)).trans (W1_arg m ρ c b hb)

/-! ## Region 1's entry: the first layer aggregated and biased, a zero bias row -/

set_option maxHeartbeats 4000000 in
theorem W3_v45 (c : Dev nD) : W3 m ρ c (Proc.devRef .tc main_v45)
    = val_main_v43 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W2 m ρ c) (Proc.devRef .tc main_v45) = _
  after_results_simp
  rw [W2_v26, W2_v3, W2_v6, W2_v29, W2_arg m ρ c main_arg3 (Or.inl rfl)]
  rfl

set_option maxHeartbeats 4000000 in
theorem W3_v47 (c : Dev nD) : W3 m ρ c (Proc.devRef .tc main_v47)
    = shapeCast S1x64 (broadcastInDim S64 ![] bcast_S_S64 (constant (F := Ideal) S_ .f32 0x00000000#32)) shapeCasts_S64_S1x64 := by
  show StableHlo.after hostOps1 (W2 m ρ c) (Proc.devRef .tc main_v47) = _
  after_results_simp <;> rfl

set_option maxHeartbeats 4000000 in
theorem W3_keep (c : Dev nD) (b : Ref sig .tc)
    (hb : b = main_v26 ∨ b = main_v3 ∨ b = main_v6 ∨ b = main_arg4 ∨ b = main_arg5 ∨ b = main_arg6 ∨ b = main_arg7) :
    W3 m ρ c (Proc.devRef .tc b) = W2 m ρ c (Proc.devRef .tc b) := by
  show StableHlo.after hostOps1 (W2 m ρ c) (Proc.devRef .tc b) = _
  rcases hb with rfl | rfl | rfl | rfl | rfl | rfl | rfl <;> (after_results_simp <;> rfl)

/-! ## Region 1's exit: the second dense product, of the rectified first layer -/

theorem W4_v48 (c : Dev nD) : W4 m ρ c (Proc.devRef .tc main_v48)
    = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 3).trans ?_
  refine (Region1.out_value (V3 m ρ) c bcast_S1x64_S100000x64_0_1 bcast_S_S100000x64).trans ?_
  show layer (relu (W3 m ρ c (Proc.devRef .tc main_v45)) _) (W3 m ρ c (Proc.devRef .tc main_arg4)) (W3 m ρ c (Proc.devRef .tc main_v47)) _ = _
  rw [W3_v45, W3_v47, W3_keep m ρ c main_arg4 (by simp), W2_arg m ρ c main_arg4 (by simp)]
  exact layer_zeroRow _ _ _ _ _

theorem W4_keep (c : Dev nD) (b : Ref sig .tc)
    (hb : b = main_v26 ∨ b = main_v3 ∨ b = main_v6 ∨ b = main_arg5 ∨ b = main_arg6 ∨ b = main_arg7) :
    W4 m ρ c (Proc.devRef .tc b) = W2 m ρ c (Proc.devRef .tc b) :=
  (W4_of_ne m ρ c b (by rcases hb with rfl | rfl | rfl | rfl | rfl | rfl <;> decide)).trans
    (W3_keep m ρ c b (by rcases hb with rfl | rfl | rfl | rfl | rfl | rfl <;> simp))

/-! ## Region 2's entry: the second layer aggregated and biased, the head's bias as a row -/

set_option maxHeartbeats 4000000 in
theorem W5_v64 (c : Dev nD) : W5 m ρ c (Proc.devRef .tc main_v64)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W4 m ρ c) (Proc.devRef .tc main_v64) = _
  after_results_simp
  rw [W4_keep m ρ c main_v26 (by simp), W4_keep m ρ c main_v3 (by simp), W4_keep m ρ c main_v6 (by simp),
    W4_keep m ρ c main_arg5 (by simp), W4_v48, W2_v26, W2_v3, W2_v6, W2_arg m ρ c main_arg5 (by simp)]
  rfl

set_option maxHeartbeats 4000000 in
theorem W5_v65 (c : Dev nD) : W5 m ρ c (Proc.devRef .tc main_v65) = shapeCast S1x11 (m ((c.tc : Thread nD τ).loc main_arg7)) shapeCasts_S11_S1x11 := by
  show StableHlo.after hostOps2 (W4 m ρ c) (Proc.devRef .tc main_v65) = _
  after_results_simp
  rw [W4_keep m ρ c main_arg7 (by simp), W2_arg m ρ c main_arg7 (by simp)]
  rfl

set_option maxHeartbeats 4000000 in
theorem W5_arg6 (c : Dev nD) : W5 m ρ c (Proc.devRef .tc main_arg6) = (m ((c.tc : Thread nD τ).loc main_arg6)) := by
  show StableHlo.after hostOps2 (W4 m ρ c) (Proc.devRef .tc main_arg6) = _
  after_results_simp
  rw [W4_keep m ρ c main_arg6 (by simp), W2_arg m ρ c main_arg6 (by simp)]

/-! ## Region 2's exit: the result -/

/-- The kernel program's result array holds the reference's result stage of the same arguments. -/
theorem W6_v66 (c : Dev nD) : W6 m ρ c (Proc.devRef .tc main_v66)
    = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 3).trans ?_
  refine (Region2.out_value (V5 m ρ) c Cert.ReferenceIdeal.Facts₀.bcast_S1x11_S100000x11_0_1 bcast_S_S100000x64).trans ?_
  show layer (relu (W5 m ρ c (Proc.devRef .tc main_v64)) _) (W5 m ρ c (Proc.devRef .tc main_arg6)) (W5 m ρ c (Proc.devRef .tc main_v65)) _ = _
  rw [W5_v64, W5_arg6, W5_v65, LibBiasRows.castRow_eq _ _ Cert.ReferenceIdeal.Facts₀.bcast_S11_S1x11_1]
  rfl

end Cert.KernelIdeal.Glue

end
-- ==== Proof.lean ====
/-
  The certificate of a two-layer graph convolution with a linear head: a tiled kernel program against its plain
  reference, equal as extended reals.

  Both programs take node features x [100000, 256], an edge list [2, 1600000], and the weights and biases of two
  graph-convolution layers and a linear head. From the edge list both build, with the same host operations, the source
  and destination vectors with self loops appended, the in-degrees, their inverse square roots, and the edge weights
  norm = dinv[src]·dinv[dst]; a graph convolution is then the dense transform h = X·W followed by the scatter-add of
  norm·h[src] into the destination rows, plus the bias. The reference computes
      out = relu(conv(relu(conv(x, W1, b1)), W2, b2))·Wfc + bfc.
  The kernel program computes each of the three dense products in a tiled region (20 blocks of 5000 rows; operands
  narrowed to bf16, which is the identity on the extended reals; the product accumulated into a zero block; a bias row
  added — a zero row for the two convolution layers, whose biases are added after the aggregation as in the
  reference, and bfc for the head) with the rectifier of the previous layer applied to the block on the way in. Rows
  of a dense layer are independent and the blocks tile the rows, so each region's output array is the host's layer of
  the whole arrays; adding a zero row changes nothing (x + 0 = x on the extended reals, the infinities included), and
  the edge-list glue is the same sequence of host operations in both programs. So the two results are one function of
  the arguments, and no finiteness of the inputs is needed.

  The three frames: the kernel programs' are the generated frame certificates; the reference's is its generated run
  with the result dropped. The ideal pass rewrote nothing, so its ledger's claim is trivial.
-/
import proofs.«180958_j82334523064419_1_alg».proof.Defs
import proofs.«180958_j82334523064419_1_alg».proof.Proof.Gen.Kernel
import proofs.«180958_j82334523064419_1_alg».proof.Proof.Gen.Kernel.Frame
import proofs.«180958_j82334523064419_1_alg».proof.Proof.Gen.KernelIdeal
import proofs.«180958_j82334523064419_1_alg».proof.Proof.Gen.KernelIdeal.Frame
import proofs.«180958_j82334523064419_1_alg».proof.Proof.Gen.ReferenceIdeal
import proofs.«180958_j82334523064419_1_alg».proof.Proof.Gen.ReferenceIdeal.Run
import proofs.«180958_j82334523064419_1_alg».proof.Proof.Gen.ReferenceIdeal.Read
import proofs.«180958_j82334523064419_1_alg».proof.Proof.Gen.Pre_finite_inputs
import proofs.«180958_j82334523064419_1_alg».proof.Proof.RunValue
import proofs.«180958_j82334523064419_1_alg».proof.Proof.Glue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the reference's result stage of the (agreeing) arguments. -/
theorem algebraic : Cert.algebraic_KernelIdeal_ReferenceIdeal := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Glue.W6_v66 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v93_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
